-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4096x256 .f32) (main_arg1 : FVec F S256x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_cst_2 : FVec F S_ .f32 := constant S_ .f32 0x00000000#32
  let main_v9 : FVec F S4096x256 .f32 := broadcastInDim S4096x256 ![] bcast_S_S4096x256 main_cst_2
  let main_v10 : IVec S4096x256 1 := cmpf .ogt main_arg0 main_v9
  let main_c_3 : IVec S_ 1 := constantI S_ 1 1#1
  let main_v11 : IVec S_ 1 := (fun x v => Host.reduce IntOp.andi x v reducesTo_S4096x256_S_d0_1 h_S_) main_v10 main_c_3
  let main_v12 : IVec S_ 1 := andi main_v8 main_v11
  main_v12
-- ==== Kernel.lean ====
abbrev S4096x256 : Shape := ⟨2, ![4096, 256]⟩
abbrev S256x256 : Shape := ⟨2, ![256, 256]⟩
abbrev S2x1x256 : Shape := ⟨3, ![2, 1, 256]⟩
abbrev S32x256 : Shape := ⟨2, ![32, 256]⟩
abbrev S1x1x256 : Shape := ⟨3, ![1, 1, 256]⟩
abbrev S32x256x1 : Shape := ⟨3, ![32, 256, 1]⟩
abbrev S1x256x256 : Shape := ⟨3, ![1, 256, 256]⟩
abbrev S32x256x256 : Shape := ⟨3, ![32, 256, 256]⟩
abbrev S256 : Shape := ⟨1, ![256]⟩
abbrev S512x256 : Shape := ⟨2, ![512, 256]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256x256, .f32⟩
  | .hbm, ⟨3, _⟩ => ⟨S2x1x256, .f32⟩
  | .hbm, ⟨4, _⟩ => ⟨S4096x256, .f32⟩
  | .local _ .vmem, ⟨0, _⟩ => ⟨S32x256, .f32⟩
  | .local _ .vmem, ⟨1, _⟩ => ⟨S32x256, .f32⟩
  | .local _ .vmem, ⟨2, _⟩ => ⟨S256x256, .f32⟩
  | .local _ .vmem, ⟨3, _⟩ => ⟨S1x1x256, .f32⟩
  | .local _ .vmem, ⟨4, _⟩ => ⟨S512x256, .f32⟩
  | .local _ .vmem, ⟨5, _⟩ => ⟨S512x256, .f32⟩
  | .local _ .vmem, ⟨6, _⟩ => ⟨S2x1x256, .f32⟩
  | .local _ .vmem, ⟨7, _⟩ => ⟨S512x256, .f32⟩
  | .local _ .vmem, ⟨8, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S256x256_S256x256_1_0 : S256x256.Transposes [1, 0] S256x256
  inb_S1x1x256_S1x1x256_0_0_0 : ∀ a, (![0, 0, 0] : Fin 3 → Nat) a + S1x1x256.size a ≤ S1x1x256.size a
  h_S1x1x256 : 0 < S1x1x256.numel
  inb_S32x256_S32x256_0_0 : ∀ a, (![0, 0] : Fin 2 → Nat) a + S32x256.size a ≤ S32x256.size a
  h_S32x256 : 0 < S32x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S32x256_S32x256x1 : S32x256.ShapeCasts S32x256x1
  shapeCasts_S256x256_S1x256x256 : S256x256.ShapeCasts S1x256x256
  broadcasts_S32x256x1_S32x256x256 : S32x256x1.Broadcasts S32x256x256
  broadcasts_S1x256x256_S32x256x256 : S1x256x256.Broadcasts S32x256x256
  reduces_S32x256x256_S256x256 : S32x256x256.Reduces [0] S256x256
  reduces_S256x256_S256 : S256x256.Reduces [0] S256
  shapeCasts_S1x1x256_S1x1x256 : S1x1x256.ShapeCasts S1x1x256
  shapeCasts_S256_S1x1x256 : S256.ShapeCasts S1x1x256
  inb_S512x256_S512x256_0_0 : ∀ a, (![0, 0] : Fin 2 → Nat) a + S512x256.size a ≤ S512x256.size a
  h_S512x256 : 0 < S512x256.numel
  inb_S2x1x256_S2x1x256_0_0_0 : ∀ a, (![0, 0, 0] : Fin 3 → Nat) a + S2x1x256.size a ≤ S2x1x256.size a
  h_S2x1x256 : 0 < S2x1x256.numel
  shapeCasts_S2x1x256_S2x1x256 : S2x1x256.ShapeCasts S2x1x256
  reduces_S2x1x256_S1x256 : S2x1x256.Reduces [0] S1x256
  shapeCasts_S1x256_S1x256 : S1x256.ShapeCasts S1x256
  broadcasts_S1x256_S512x256 : S1x256.Broadcasts S512x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S4096x256.size a
  hwx0_0 : ∀ i : grid0.Coords, EltTy.bits .f32 = 32 ∨ (Rect.block (s := S4096x256) S32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S2x1x256.size a
  hwx0_2 : ∀ i : grid0.Coords, EltTy.bits .f32 = 32 ∨ (Rect.block (s := S2x1x256) S1x1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x256.size a
  hwx1_0 : ∀ i : grid1.Coords, EltTy.bits .f32 = 32 ∨ (Rect.block (s := S4096x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x1x256.size a ≤ S2x1x256.size a
  hwx1_1 : ∀ i : grid1.Coords, EltTy.bits .f32 = 32 ∨ (Rect.block (s := S2x1x256) S2x1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S4096x256.size a
  hwx1_2 : ∀ i : grid1.Coords, EltTy.bits .f32 = 32 ∨ (Rect.block (s := S4096x256) S512x256.size (cc1_transform_2 i) (hinb1_2 i)).WholeWords (EltTy.packing .f32)

variable [Facts₀]

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2x1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S4096x256x1 : Shape := ⟨3, ![4096, 256, 1]⟩
abbrev S1x256x256 : Shape := ⟨3, ![1, 256, 256]⟩
abbrev S4096x256x256 : Shape := ⟨3, ![4096, 256, 256]⟩
abbrev S_ : Shape := ⟨0, ![]⟩
abbrev S256 : Shape := ⟨1, ![256]⟩
abbrev S1x256 : Shape := ⟨2, ![1, 256]⟩

abbrev nBuf : Space → Nat
  | .hbm => 17
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S4096x256x1, .f32⟩
  | .hbm, ⟨3, _⟩ => ⟨S4096x256x1, .f32⟩
  | .hbm, ⟨4, _⟩ => ⟨S256x256, .f32⟩
  | .hbm, ⟨5, _⟩ => ⟨S1x256x256, .f32⟩
  | .hbm, ⟨6, _⟩ => ⟨S4096x256x256, .f32⟩
  | .hbm, ⟨7, _⟩ => ⟨S4096x256x256, .f32⟩
  | .hbm, ⟨8, _⟩ => ⟨S4096x256x256, .f32⟩
  | .hbm, ⟨9, _⟩ => ⟨S4096x256x256, .f32⟩
  | .hbm, ⟨10, _⟩ => ⟨S_, .f32⟩
  | .hbm, ⟨11, _⟩ => ⟨S256, .f32⟩
  | .hbm, ⟨12, _⟩ => ⟨S4096x256, .f32⟩
  | .hbm, ⟨13, _⟩ => ⟨S1x256, .f32⟩
  | .hbm, ⟨14, _⟩ => ⟨S4096x256, .f32⟩
  | .hbm, ⟨15, _⟩ => ⟨S4096x256, .f32⟩
  | .hbm, ⟨16, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]

class Facts₀ : Prop where
  bcast_S4096x256_S4096x256x1_0_1 : S4096x256.BroadcastsInDim S4096x256x1 (![0, 1] : Fin 2 → Fin S4096x256x1.rank)
  transposes_S256x256_S256x256_1_0 : S256x256.Transposes [1, 0] S256x256
  bcast_S256x256_S1x256x256_1_2 : S256x256.BroadcastsInDim S1x256x256 (![1, 2] : Fin 2 → Fin S1x256x256.rank)
  bcast_S4096x256x1_S4096x256x256_0_1_2 : S4096x256x1.BroadcastsInDim S4096x256x256 (![0, 1, 2] : Fin 3 → Fin S4096x256x256.rank)
  bcast_S1x256x256_S4096x256x256_0_1_2 : S1x256x256.BroadcastsInDim S4096x256x256 (![0, 1, 2] : Fin 3 → Fin S4096x256x256.rank)
  reducesTo_S4096x256x256_S256_d0_1 : S4096x256x256.ReducesTo [0, 1] S256
  h_S_ : 0 < S_.numel
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)

variable [Facts₀]

class Facts : Prop extends Facts₀ where

variable [Facts]
-- ==== Proof.WholeRun.lean ====
/-
  The idealized kernel program's run with its result array named.

  The program is a transpose on the host followed by two kernel regions.  Every weakly fair execution terminates, the
  two argument arrays end as launched, and the result array ends at what the second region's write-backs leave: the
  contents `lastArr`, the second region's output window after its last grid point, the region having been entered
  from the memory the first region left.
-/
import proofs.«128110_j71992241816165_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the second region leaves in the result array: its output window's write-backs folded over all grid points. -/
abbrev lastArr (c : Dev nD) := (dat1 (V2 m ρ) c).arrAt 2 cfg1.N

set_option backward.isDefEq.respectTransparency.types false in
/-- Every weakly fair execution of the program terminates, nothing faulting, with the result array at `lastArr` and the
    argument arrays as launched. -/
theorem run_main : θ_run defs (onTc (τ := τ) (main (F := F))) ⟨m, fun _ => 0, ρ⟩ (fun r => ∀ c : Dev nD,
      r.2.mem ((c.tc : Thread nD τ).loc main_v2) = lastArr m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_arr m ρ c 2),
       (h c _ (mem_uc main_arg0 (by decide))).trans (W3_main_arg0 m ρ c),
       (h c _ (mem_uc main_arg1 (by decide))).trans (W3_main_arg1 m ρ c)⟩)

/-- The second region is entered with the first argument's array as launched: the host transpose and the first region
    leave it alone. -/
theorem entry1_x (c : Dev nD) : V2 m ρ c main_arg0 = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := by
      show StableHlo.after hostOps0 (W0 m ρ c) (Proc.devRef .tc main_arg0) = _
      dsimp only [hostOps0]
      after_results

/-- The second region is entered with the partial sums' array at what the first region's write-backs leave. -/
theorem entry1_s (c : Dev nD) : V2 m ρ c main_v1 = (dat0 (V1 m ρ) c).arrAt 2 cfg0.N := W2_arr m ρ c 2

/-- The first region is entered with the first argument's array as launched, -/
theorem entry0_x (c : Dev nD) : V1 m ρ c main_arg0 = m ((c : Thread nD τ).loc main_arg0) := by
  show StableHlo.after hostOps0 (W0 m ρ c) (Proc.devRef .tc main_arg0) = _
  dsimp only [hostOps0]
  after_results

/-- and with the second argument's array transposed. -/
theorem entry0_w (c : Dev nD) : V1 m ρ c main_v0
    = transpose S256x256 [1, 0] (m ((c : Thread nD τ).loc main_arg1)) transposes_S256x256_S256x256_1_0 := by
  show StableHlo.after hostOps0 (W0 m ρ c) (Proc.devRef .tc main_v0) = _
  dsimp only [hostOps0]
  after_results

end Cert.KernelIdeal.Whole

end
-- ==== Proof.LibLeadingAxis.lean ====
/-
  A float sum along the leading axis, and four changes of layout, read at an index, at exact (extended-real) arithmetic.

  A vector sum over axis 0 of an n0 × n1 × n2 array from the zero word, at (b, c), is Σ_a of the entries (a, b, c)
  (sumLead3), and the same one rank lower (sumLead2).  An [a, b] array cast to [a, b, 1] and an [a] array cast to
  [1, 1, a] keep their entries (cast_ab_ab1, cast_a_11a); an [a, b, 1] array broadcast along a new last extent and a
  [1, b, c] array broadcast along a new first extent repeat theirs (bcast_ab1_abc, bcast_1bc_abc).
-/
import Idealize.ShloMosaic.PureOps.Ideal.Laws
import Idealize.ShloMosaic.Lib.Pipeline.Value
import Idealize.ShloMosaic.Lib.ValueIdx

noncomputable section

open scoped BigOperators

namespace Cert.LibLeadingAxis

open Idealize.ShloMosaic Idealize.ShloMosaic.ValueIdx

variable {α : Type}

/-! ## Sums along the leading axis -/

/-- Putting coordinate k back in front of (b, c) gives (k, b, c). -/
theorem lift3 {n0 n1 n2 : ℕ} (h : (⟨3, ![n0, n1, n2]⟩ : Shape).Reduces [0] (⟨2, ![n1, n2]⟩ : Shape)) (b : Fin n1) (c : Fin n2)
    (k : Fin ((⟨3, ![n0, n1, n2]⟩ : Shape).size 0)) : h.lift (ix2 b c) k = ix3 (⟨k.val, k.isLt⟩ : Fin n0) b c := by
  funext d; apply Fin.ext
  fin_cases d <;> rfl

/-- Putting coordinate k back in front of c gives (k, c). -/
theorem lift2 {n0 n1 : ℕ} (h : (⟨2, ![n0, n1]⟩ : Shape).Reduces [0] (⟨1, ![n1]⟩ : Shape)) (c : Fin n1)
    (k : Fin ((⟨2, ![n0, n1]⟩ : Shape).size 0)) : h.lift (ix1 c) k = ix2 (⟨k.val, k.isLt⟩ : Fin n0) c := by
  funext d; apply Fin.ext
  fin_cases d <;> rfl

/-- A sum over the leading axis of an n0 × n1 × n2 array, at (b, c), is the sum of the entries (a, b, c). -/
theorem sumLead3 {n0 n1 n2 : ℕ} (src : FVec Ideal ⟨3, ![n0, n1, n2]⟩ .f32)
    (h : (⟨3, ![n0, n1, n2]⟩ : Shape).Reduces [0] (⟨2, ![n1, n2]⟩ : Shape)) (hφ : FKind.Formats .f32)
    (hacc : (0x00000000#32 : BitVec 32) = FKind.add.neutral .f32 hφ) (b : Fin n1) (c : Fin n2) :
    multiReduction (F := Ideal) .add [0] ⟨2, ![n1, n2]⟩ src 0x00000000#32 h hφ hacc (ix2 b c) = ∑ a : Fin n0, src (ix3 a b c) := by
  refine (Ideal.multiReduction_add_single src 0x00000000#32 h hφ hacc (ix2 b c)).trans ?_
  exact Finset.sum_congr rfl fun k _ => congrArg src (lift3 h b c k)

/-- A sum over the leading axis of an n0 × n1 array, at c, is the sum of the entries (a, c). -/
theorem sumLead2 {n0 n1 : ℕ} (src : FVec Ideal ⟨2, ![n0, n1]⟩ .f32)
    (h : (⟨2, ![n0, n1]⟩ : Shape).Reduces [0] (⟨1, ![n1]⟩ : Shape)) (hφ : FKind.Formats .f32)
    (hacc : (0x00000000#32 : BitVec 32) = FKind.add.neutral .f32 hφ) (c : Fin n1) :
    multiReduction (F := Ideal) .add [0] ⟨1, ![n1]⟩ src 0x00000000#32 h hφ hacc (ix1 c) = ∑ a : Fin n0, src (ix2 a c) := by
  refine (Ideal.multiReduction_add_single src 0x00000000#32 h hφ hacc (ix1 c)).trans ?_
  exact Finset.sum_congr rfl fun k _ => congrArg src (lift2 h c k)

/-! ## Layout changes read at an index -/

/-- An [a, b] array cast to [a, b, 1] reads, at (i, j, u), the operand at (i, j). -/
theorem cast_ab_ab1 {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a] array cast to [1, 1, a] reads, at (u, v, i), the operand at i. -/
theorem cast_a_11a {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv, Nat.zero_mul, Nat.zero_add])

/-- An [a, b, 1] array broadcast to [a, b, c] reads, at (i, j, k), the operand at (i, j, 0). -/
theorem bcast_ab1_abc {a b c : ℕ} (ha : a ≠ 1) (hb : b ≠ 1) (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ => show i.val = if a = 1 then 0 else i.val; rw [if_neg ha]
  | ⟨1, _⟩ => show j.val = if b = 1 then 0 else j.val; rw [if_neg hb]
  | ⟨2, _⟩ => rfl

/-- A [1, b, c] array broadcast to [a, b, c] reads, at (i, j, k), the operand at (0, j, k). -/
theorem bcast_1bc_abc {a b c : ℕ} (hb : b ≠ 1) (hc : c ≠ 1) (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ => show j.val = if b = 1 then 0 else j.val; rw [if_neg hb]
  | ⟨2, _⟩ => show k.val = if c = 1 then 0 else k.val; rw [if_neg hc]

end Cert.LibLeadingAxis

end
-- ==== Proof.Payload.lean ====
/-
  What the two kernel bodies compute, read at an index, at exact (extended-real) arithmetic.

  The summing body: from a 32 × 256 block x of rows, the 256 × 256 transposed weights wt and the running partial row acc,
  it stores  acc[o] + Σ_i Σ_r log(1 + (0 − x[r,i] · wt[i,o])):  the rows and the weights are broadcast to 32 × 256 × 256,
  multiplied, negated by a subtraction from zero, passed through log(1 + ·), and summed first over the 32 rows, then over
  the 256 columns i.  The finishing body: from a 512 × 256 block x and the two partial rows s it stores
  x[p,q] · exp(s[0,q] + s[1,q]).
-/
import proofs.«128110_j71992241816165_2_alg».proof.Proof.Gen.KernelIdeal.Skeleton
import proofs.«128110_j71992241816165_2_alg».proof.Proof.LibLeadingAxis
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Pay

open Cert.KernelIdeal Cert.KernelIdeal.Gen
open Idealize.ShloMosaic Idealize.ShloMosaic.ValueIdx Cert.LibLeadingAxis

/-! ## The summing body -/

/-- The value the summing body stores first at a row's start: zero everywhere. -/
theorem reset_apply (j : S1x1x256.Idx) : k0_pay1 (F := Ideal) j = Ideal.ofBits .f32 0x00000000#32 := rfl

/-- One entry of the 32 × 256 × 256 array the summing body reduces: log(1 + (0 − x[r,i] · wt[i,o])). -/
def entry (x : Vec Ideal S32x256 .f32) (wt : Vec Ideal S256x256 .f32) (r : Fin 32) (i : Fin 256) (o : Fin 256) : EReal :=
  Ideal.log1p (Ideal.ofBits .f32 0x00000000#32 - x (ix2 r i) * wt (ix2 i o))

/-- The value the summing body stores last: the partial row it found plus the block's double sum. -/
theorem sum_apply (x : Vec Ideal S32x256 .f32) (wt : Vec Ideal S256x256 .f32) (acc : Vec Ideal S1x1x256 .f32)
    (u v : Fin 1) (o : Fin 256) :
    k0_pay2 (F := Ideal) x wt acc (ix3 u v o) = acc (ix3 u v o) + ∑ i : Fin 256, ∑ r : Fin 32, entry x wt r i o := by
  unfold k0_pay2
  dsimp only
  rw [addf_apply, shapeCast_self]
  refine congrArg (acc (ix3 u v o) + ·) ?_
  refine (cast_a_11a _ _ u v o).trans ?_
  refine (sumLead2 _ _ _ _ o).trans ?_
  refine Finset.sum_congr rfl fun i _ => ?_
  refine (sumLead3 _ _ _ _ i o).trans ?_
  refine Finset.sum_congr rfl fun r _ => ?_
  show Ideal.log1p (_ - _ * _) = _
  unfold entry
  rw [bcast_ab1_abc (by decide) (by decide), bcast_1bc_abc (by decide) (by decide), cast_ab_ab1, shapeCast_ab_1ab_apply, shapeCast_self]
  rfl

/-! ## The finishing body -/

/-- The value the finishing body stores: x[p,q] · exp(s[0,q] + s[1,q]). -/
theorem scale_apply (x : Vec Ideal S512x256 .f32) (s : Vec Ideal S2x1x256 .f32) (p : Fin 512) (q : Fin 256) :
    k1_pay1 (F := Ideal) x s (ix2 p q)
      = x (ix2 p q) * Ideal.exp (s (ix3 (0 : Fin 2) (0 : Fin 1) q) + s (ix3 (1 : Fin 2) (0 : Fin 1) q)) := by
  unfold k1_pay1
  dsimp only
  rw [mulf_apply]
  refine congrArg (x (ix2 p q) * ·) ?_
  rw [broadcastTo_1b_ab_apply, shapeCast_self]
  show Ideal.exp _ = _
  refine congrArg Ideal.exp ?_
  refine (sumLead3 _ _ _ _ (0 : Fin 1) q).trans ?_
  rw [Fin.sum_univ_two, shapeCast_self]

end Cert.KernelIdeal.Pay

end
-- ==== Proof.LibBlockSum.lean ====
import Mathlib.Algebra.BigOperators.Fin
import Mathlib.Logic.Equiv.Fin.Basic

/-!
# A finite sum cut into consecutive blocks

A sum over `Fin (B * n)` is the sum over the `B` consecutive blocks of length `n` of the sums inside each block,
and a sum over `Finset.range B` is the sum over `Fin B`. Both hold in every commutative additive monoid: no
subtraction, no finiteness of the terms and no order is used, so they apply to the extended reals as they stand.
The three instances at the end state the first one with literal extents, so that they rewrite a sum whose index
type is written `Fin 8192` or `Fin 16384` and not as a product.
-/

open scoped BigOperators

namespace Cert.LibBlockSum

variable {M : Type*} [AddCommMonoid M]

/-- The `r`-th position of the `j`-th block of length `n` lies below `B * n` when there are `B` blocks. -/
theorem block_lt {B n : ℕ} (j : Fin B) (r : Fin n) : j.val * n + r.val < B * n :=
  calc j.val * n + r.val < j.val * n + n := Nat.add_lt_add_left r.isLt _
    _ = (j.val + 1) * n := (Nat.succ_mul _ _).symm
    _ ≤ B * n := Nat.mul_le_mul_right n j.isLt

/-- A sum of `B * n` terms is the sum over `B` consecutive blocks of the sum of the `n` terms of the block:
    position `k = j * n + r` is the `r`-th term of block `j`, and `(j, r) ↦ j * n + r` is a bijection of
    `Fin B × Fin n` with `Fin (B * n)`. -/
theorem sum_blocks (B n : ℕ) (f : Fin (B * n) → M) :
    ∑ k, f k = ∑ j : Fin B, ∑ r : Fin n, f ⟨j.val * n + r.val, block_lt j r⟩ := by
  rw [← Equiv.sum_comp finProdFinEquiv f, Fintype.sum_prod_type]
  refine Finset.sum_congr rfl fun j _ => Finset.sum_congr rfl fun r _ => ?_
  refine congrArg f (Fin.ext ?_)
  show r.val + n * j.val = j.val * n + r.val
  rw [Nat.add_comm, Nat.mul_comm]

/-- A sum over the naturals below `B` is the sum over `Fin B` of the same terms. -/
theorem sum_range_eq_fin (B : ℕ) (g : ℕ → M) :
    ∑ s ∈ Finset.range B, g s = ∑ j : Fin B, g j.val :=
  (Fin.sum_univ_eq_sum_range g B).symm

/-- A sum of 8192 terms as 8 consecutive blocks of 1024. -/
theorem sum_8192_as_8x1024 (f : Fin 8192 → M) :
    ∑ k, f k = ∑ j : Fin 8, ∑ r : Fin 1024, f ⟨1024 * j.val + r.val, by omega⟩ := by
  refine (sum_blocks 8 1024 f).trans ?_
  refine Finset.sum_congr rfl fun j _ => Finset.sum_congr rfl fun r _ => ?_
  exact congrArg f (Fin.ext (Nat.add_right_cancel_iff.mpr (Nat.mul_comm _ _)))

/-- A sum of 8192 terms as 4 consecutive blocks of 2048. -/
theorem sum_8192_as_4x2048 (f : Fin 8192 → M) :
    ∑ k, f k = ∑ j : Fin 4, ∑ r : Fin 2048, f ⟨2048 * j.val + r.val, by omega⟩ := by
  refine (sum_blocks 4 2048 f).trans ?_
  refine Finset.sum_congr rfl fun j _ => Finset.sum_congr rfl fun r _ => ?_
  exact congrArg f (Fin.ext (Nat.add_right_cancel_iff.mpr (Nat.mul_comm _ _)))

/-- A sum of 16384 terms as 8 consecutive blocks of 2048. -/
theorem sum_16384_as_8x2048 (f : Fin 16384 → M) :
    ∑ k, f k = ∑ j : Fin 8, ∑ r : Fin 2048, f ⟨2048 * j.val + r.val, by omega⟩ := by
  refine (sum_blocks 8 2048 f).trans ?_
  refine Finset.sum_congr rfl fun j _ => Finset.sum_congr rfl fun r _ => ?_
  exact congrArg f (Fin.ext (Nat.add_right_cancel_iff.mpr (Nat.mul_comm _ _)))

end Cert.LibBlockSum
-- ==== Proof.Spec.lean ====
/-
  The mathematics of the claim, free of any program.

  For x : 4096 × 256 and W : 256 × 256 put  term n i o = log(1 − x[n,i] · W[o,i]),  S[o] = Σ_n Σ_i term n i o,  and
  out[n,o] = x[n,o] · exp(S[o]).  The reference computes exp(log x[n,o] + S[o]); the two agree for a real x[n,o] > 0,
  whatever extended real S[o] is (exp_log_add).  The kernel gathers S[o] in 128 consecutive groups of 32 rows, 64 groups
  to each of two partial rows, and adds the two partial rows at the end; as sums in a commutative monoid the grouping
  does not matter (core_add).
-/
import Idealize.ShloMosaic.PureOps.Ideal
import Idealize.ShloMosaic.PureOps.Ideal.Laws
import Idealize.ShloMosaic.Lib.ValueIdx
import proofs.«128110_j71992241816165_2_alg».proof.Proof.LibBlockSum

noncomputable section

open scoped BigOperators

namespace Cert.LogSum

open Idealize.ShloMosaic Idealize.ShloMosaic.ValueIdx

abbrev SX : Shape := ⟨2, ![4096, 256]⟩
abbrev SW : Shape := ⟨2, ![256, 256]⟩

/-- One term: log(1 − x[n,i] · W[o,i]). -/
def term (x : SX.Idx → EReal) (w : SW.Idx → EReal) (n : Fin 4096) (i : Fin 256) (o : Fin 256) : EReal :=
  Ideal.log1p (-(x (ix2 n i) * w (ix2 o i)))

/-- S[o]: the sum of the terms over all rows n and all columns i. -/
def total (x : SX.Idx → EReal) (w : SW.Idx → EReal) (o : Fin 256) : EReal :=
  ∑ n : Fin 4096, ∑ i : Fin 256, term x w n i o

/-- The result: out[n,o] = x[n,o] · exp(S[o]). -/
def out (x : SX.Idx → EReal) (w : SW.Idx → EReal) : SX.Idx → EReal :=
  fun j => x j * Ideal.exp (total x w (j 1))

/-- Row number r of the group of 32 rows number t (t < 128 is the case used; the remainder only keeps the row in range). -/
abbrev rowOf (t : ℕ) (r : Fin 32) : Fin 4096 := ⟨(32 * t + r.val) % 4096, Nat.mod_lt _ (by decide)⟩

/-- The contribution of group t to S[o]: its 32 rows, all columns. -/
def groupSum (x : SX.Idx → EReal) (w : SW.Idx → EReal) (t : ℕ) (o : Fin 256) : EReal :=
  ∑ i : Fin 256, ∑ r : Fin 32, term x w (rowOf t r) i o

/-- A partial row: the groups 64·c … 64·c + 63. -/
def coreSum (x : SX.Idx → EReal) (w : SW.Idx → EReal) (c : ℕ) (o : Fin 256) : EReal :=
  ∑ s ∈ Finset.range 64, groupSum x w (64 * c + s) o

/-- The two partial rows add up to S[o]: 4096 rows are 2 · 64 groups of 32 rows. -/
theorem core_add (x : SX.Idx → EReal) (w : SW.Idx → EReal) (o : Fin 256) :
    coreSum x w 0 o + coreSum x w 1 o = total x w o := by
  unfold coreSum total
  rw [LibBlockSum.sum_range_eq_fin, LibBlockSum.sum_range_eq_fin]
  have h1 : ∑ n : Fin 4096, ∑ i : Fin 256, term x w n i o
      = ∑ t : Fin 128, ∑ r : Fin 32, ∑ i : Fin 256, term x w ⟨t.val * 32 + r.val, LibBlockSum.block_lt t r⟩ i o :=
    LibBlockSum.sum_blocks 128 32 (fun n : Fin (128 * 32) => ∑ i : Fin 256, term x w n i o)
  have h2 : ∀ g : Fin 128 → EReal, ∑ t : Fin 128, g t
      = ∑ c : Fin 2, ∑ s : Fin 64, g ⟨c.val * 64 + s.val, LibBlockSum.block_lt c s⟩ :=
    fun g => LibBlockSum.sum_blocks 2 64 (fun t : Fin (2 * 64) => g t)
  rw [h1, h2, Fin.sum_univ_two]
  have hg : ∀ (c : Fin 2) (s : Fin 64), groupSum x w (64 * c.val + s.val) o
      = ∑ r : Fin 32, ∑ i : Fin 256, term x w ⟨(c.val * 64 + s.val) * 32 + r.val,
          LibBlockSum.block_lt (⟨c.val * 64 + s.val, LibBlockSum.block_lt c s⟩ : Fin 128) r⟩ i o := by
    intro c s
    unfold groupSum
    rw [Finset.sum_comm]
    refine Finset.sum_congr rfl fun r _ => Finset.sum_congr rfl fun i _ => ?_
    refine congrArg (fun n => term x w n i o) (Fin.ext ?_)
    show (32 * (64 * c.val + s.val) + r.val) % 4096 = (c.val * 64 + s.val) * 32 + r.val
    have := c.isLt; have := s.isLt; have := r.isLt
    omega
  refine congrArg₂ (· + ·) (Finset.sum_congr rfl fun s _ => ?_) (Finset.sum_congr rfl fun s _ => ?_)
  · exact hg 0 s
  · exact hg 1 s

/-- exp(log a + S) = a · exp S for a real a > 0 and any extended real S: at S = −∞ both sides are 0, at S = +∞ both are
    +∞, and on the reals it is exp(log a + s) = a · exp s. -/
theorem exp_log_add (a : ℝ) (ha : 0 < a) (S : EReal) :
    Ideal.exp (Ideal.log (a : EReal) + S) = (a : EReal) * Ideal.exp S := by
  have hl : Ideal.log (a : EReal) = ((Real.log a : ℝ) : EReal) := by
    show (if a ≤ 0 then (⊥ : EReal) else ((Real.log a : ℝ) : EReal)) = _
    rw [if_neg (not_le.mpr ha)]
  rw [hl]
  induction S using EReal.rec with
  | bot =>
    rw [EReal.add_bot]
    show (0 : EReal) = (a : EReal) * 0
    rw [mul_zero]
  | top =>
    rw [EReal.coe_add_top]
    show (⊤ : EReal) = (a : EReal) * ⊤
    rw [EReal.coe_mul_top_of_pos ha]
  | coe s =>
    rw [← EReal.coe_add]
    show ((Real.exp (Real.log a + s) : ℝ) : EReal) = (a : EReal) * ((Real.exp s : ℝ) : EReal)
    rw [Real.exp_add, Real.exp_log ha, EReal.coe_mul]

end Cert.LogSum

end
-- ==== Proof.PartialRows.lean ====
/-
  The summing region's output array as one function of the arrays it is entered with.

  The region runs over 128 grid points, point t = 64·k + s for the partial row k ∈ {0, 1} and the step s < 64.  Point t
  reads rows 32·t … 32·t + 31 of x and the whole transposed weights wt; at s = 0 it first resets partial row k to zero;
  at every step it adds  Σ_i Σ_r log(1 + (0 − x[32·t + r, i] · wt[i, o]))  to entry o of partial row k; the row is written
  back once, after s = 63.  So the array of partial rows ends at  rows[k,0,o] = 0 + Σ_{s<64} (that double sum at
  t = 64·k + s).
-/
import proofs.«128110_j71992241816165_2_alg».proof.Proof.Gen.KernelIdeal.Frame
import proofs.«128110_j71992241816165_2_alg».proof.Proof.Payload
import proofs.«128110_j71992241816165_2_alg».proof.Proof.Spec
import Idealize.ShloMosaic.Lib.Pipeline.Value
import Idealize.ShloMosaic.Lib.Tactic

set_option maxRecDepth 16384

noncomputable section

open scoped BigOperators

namespace Cert.KernelIdeal.Partial

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable {F : FTy → Type} [FloatOps F]

/-- At a later step of a partial row the body leaves, in the output's buffer holding acc, its last store's value of the
    two input blocks and acc. -/
theorem later_step (c : Dev nD) (i : grid0.Coords) (a2 : Memref sig .tc .vmem S32x256 .f32) (h2 : a2.IsWhole)
    (a3 : Memref sig .tc .vmem S256x256 .f32) (h3 : a3.IsWhole) (a4 : Memref sig .tc .vmem S1x1x256 .f32) (h4 : a4.IsWhole)
    (hc : ¬cond0_0 i) (x0 : Vec F S32x256 .f32) (x1 : Vec F S256x256 .f32) (acc : Vec F S1x1x256 .f32) :
    out0_B_2 c i a2 h2 a3 h3 a4 h4 hc x0 x1 acc = k0_pay2 x0 x1 acc := by
  unfold out0_B_2
  rw [View.read_writes_eq_canon _ _ _ (cover0_B_2 c i a2 h2 a3 h3 a4 h4 hc x0 x1 acc)]
  unfold kernelRun0_B
  dsimp only
  rw [View.canon_unit_zero hz3]
  simp only [View.readAt_eq_ld, h2.read_unread, h3.read_unread, h4.read_unread, View.ld_unit_zero (S := S32x256) hz2,
    View.ld_unit_zero (S := S256x256) hz2, View.ld_unit_zero (S := S1x1x256) hz3]

/-- At the first step of a partial row the body stores the zero row, reads it back, and leaves its last store's value of
    the two input blocks and the zero row. -/
theorem first_step (c : Dev nD) (i : grid0.Coords) (a2 : Memref sig .tc .vmem S32x256 .f32) (h2 : a2.IsWhole)
    (a3 : Memref sig .tc .vmem S256x256 .f32) (h3 : a3.IsWhole) (a4 : Memref sig .tc .vmem S1x1x256 .f32) (h4 : a4.IsWhole)
    (hc : cond0_0 i) (x0 : Vec F S32x256 .f32) (x1 : Vec F S256x256 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x256) hz3, View.readCov_unit_zero (S := S1x1x256) _ hz3]
  simp only [View.readAt_eq_ld, h2.read_unread, h3.read_unread, View.ld_unit_zero (S := S32x256) hz2,
    View.ld_unit_zero (S := S256x256) hz2, View.ld_unit_zero (S := S1x1x256) hz3]

end Cases

/-! ## The region's output array -/

section Value

variable (V : (c : Dev nD) → (b : Ref sig .tc) → Buf (Elt Ideal) ((c : Thread nD τ).loc b))

/-- The block index maps over the grid: the row window of x moves with the point, the window of the weights stays, the
    output window is partial row t / 64. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val / 64 ∧ win0_2.index t (1 : Fin 3) = 0 ∧ win0_2.index t (2 : Fin 3) = 0 :=
  (by decide +kernel : ∀ t : Fin grid0.N, _)

/-- Point t's block of x holds rows 32·t … 32·t + 31. -/
theorem read_x (c : Dev nD) (t : Fin cfg0.N) (r : Fin 32) (i : Fin 256) :
    (iblk0 V c 0 t : Vec Ideal S32x256 .f32) (ix2 r i) = V c main_arg0 (ix2 (LogSum.rowOf t.val r) i) := by
  obtain ⟨e0, e1, -⟩ := idx_facts t
  have hN : t.val < 128 := lt_of_lt_of_eq t.isLt N_0
  have hr : r.val < 32 := r.isLt
  unfold iblk0
  rw [View.read_apply]
  show V c main_arg0 (((cfg0.win 0).blk t).view.emb (ix2 r i)) = _
  refine congrArg (V c main_arg0) ?_
  funext a; apply Fin.ext
  match a with
  | ⟨0, _⟩ => show win0_0.index t (0 : Fin 2) * 32 + 1 * r.val = (32 * t.val + r.val) % 4096; omega
  | ⟨1, _⟩ => show win0_0.index t (1 : Fin 2) * 256 + 1 * i.val = i.val; omega

/-- Every point's block of the transposed weights is the whole array. -/
theorem read_w (c : Dev nD) (t : Fin cfg0.N) (i : Fin 256) (o : Fin 256) :
    (iblk0 V c 1 t : Vec Ideal S256x256 .f32) (ix2 i o) = V c main_v0 (ix2 i o) := by
  obtain ⟨-, -, e2, e3, -⟩ := idx_facts t
  unfold iblk0
  rw [View.read_apply]
  show V c main_v0 (((cfg0.win 1).blk t).view.emb (ix2 i o)) = _
  refine congrArg (V c main_v0) ?_
  funext a; apply Fin.ext
  match a with
  | ⟨0, _⟩ => show win0_1.index t (0 : Fin 2) * 256 + 1 * i.val = i.val; omega
  | ⟨1, _⟩ => show win0_1.index t (1 : Fin 2) * 256 + 1 * o.val = o.val; omega

/-- What point n adds to entry o of its partial row (n < 128 is the case used). -/
def addend (x : S4096x256.Idx → EReal) (wt : S256x256.Idx → EReal) (n : ℕ) (o : Fin 256) : EReal :=
  ∑ i : Fin 256, ∑ r : Fin 32,
    Ideal.log1p (Ideal.ofBits .f32 0x00000000#32 - x (ix2 (LogSum.rowOf n r) i) * wt (ix2 i o))

/-- The body's step at point n, as a function of the partial row it finds. -/
def step (c : Dev nD) (n : ℕ) (h : n < cfg0.N) (acc : Vec Ideal S1x1x256 .f32) : Vec Ideal S1x1x256 .f32 :=
  k0_pay2 (iblk0 V c 0 ⟨n, h⟩ : Vec Ideal S32x256 .f32) (iblk0 V c 1 ⟨n, h⟩ : Vec Ideal S256x256 .f32) acc

/-- The body's step at the first point of a partial row: the step from the zero row. -/
def start (c : Dev nD) (n : ℕ) (h : n < cfg0.N) : Vec Ideal S1x1x256 .f32 := step V c n h (k0_pay1 (F := Ideal))

/-- A step adds the point's addend to every entry of the partial row. -/
theorem step_apply (c : Dev nD) (n : ℕ) (h : n < cfg0.N) (acc : Vec Ideal S1x1x256 .f32) (j : S1x1x256.Idx) :
    step V c n h acc j = acc j + addend (V c main_arg0) (V c main_v0) n (j 2) := by
  obtain ⟨u, v, o, rfl⟩ : ∃ (u v : Fin 1) (o : Fin 256), j = ix3 u v o := ⟨j 0, j 1, j 2, eq_ix3 j⟩
  unfold step
  refine (Pay.sum_apply _ _ acc u v o).trans ?_
  refine congrArg (acc (ix3 u v o) + ·) ?_
  unfold addend Pay.entry
  refine Finset.sum_congr rfl fun i _ => Finset.sum_congr rfl fun r _ => ?_
  rw [read_x V c ⟨n, h⟩ r i, read_w V c ⟨n, h⟩ i o]

/-- What the output's buffer holds after point t: the fold of the steps over the points of t's partial row up to t. -/
theorem outs_fold (c : Dev nD) (t : ℕ) (ht : t < cfg0.N) (h' : 64 * (t / 64) + t % 64 < cfg0.N) :
    outsAt0 V c t ht = Pipeline.accAt (start V c) (step V c) (64 * (t / 64)) (t % 64) h' :=
  Pipeline.eq_accAt_of_mod (outsAt0 V c) 64 (start V c) (step V c)
    (fun n h h0 => (outsAt0_A V c ⟨n, h⟩ h0).trans (first_step ..))
    (fun n h h0 => (outsAt0_B V c ⟨n + 1, h⟩ h0).trans (later_step ..))
    (by decide) t ht h'

/-- The array of partial rows after the region: rows[k,0,o] = 0 + Σ_{s<64} (the addend of point 64·k + s at o). -/
def rows (x : S4096x256.Idx → EReal) (wt : S256x256.Idx → EReal) : S2x1x256.Idx → EReal :=
  fun j => Ideal.ofBits .f32 0x00000000#32 + ∑ s ∈ Finset.range 64, addend x wt (64 * (j 0).val + s) (j 2)

/-- The one write-back of a partial row, after its last step, writes its block of `rows`. -/
theorem flushed_eq (c : Dev nD) (t : Fin cfg0.N) (hf : (cfg0.win 2).flush t = true) :
    (dat0 V c).flushed 2 t = ((cfg0.win 2).blk t).view.read (Elt Ideal) (rows (V c main_arg0) (V c main_v0)) := by
  have hN : cfg0.N = 128 := N_0
  have h63 : t.val % 64 = 63 := (flush0_2 t).mp hf
  have htl : t.val < 128 := lt_of_lt_of_eq t.isLt hN
  obtain ⟨-, -, -, -, e4, e5, e6⟩ := idx_facts t
  show (cfg0.win 2).cut (grid0.coords t) ((dat0 V c).after 2 t) = _
  rw [after0_2, outs_fold V c t.val t.isLt (by omega)]
  funext y
  obtain ⟨u, v, o, rfl⟩ : ∃ (u v : Fin 1) (o : Fin 256), y = ix3 u v o := ⟨y 0, y 1, y 2, eq_ix3 y⟩
  have hu : u.val = 0 := by omega
  have ho : o.val < 256 := o.isLt
  refine (Pipeline.accAt_add_apply (start V c) (step V c) (fun _ => Ideal.ofBits .f32 0x00000000#32)
    (fun n j => addend (V c main_arg0) (V c main_v0) n (j 2)) (64 * (t.val / 64)) 63
    (fun h j => step_apply V c _ h _ j) (fun n h acc j _ _ => step_apply V c n h acc j)
    (t.val % 64) (by omega) _ (ix3 u v o)).trans ?_
  rw [h63]
  show _ = rows (V c main_arg0) (V c main_v0) (((cfg0.win 2).blk t).view.emb (ix3 u v o))
  have k0 : ((((cfg0.win 2).blk t).view.emb (ix3 u v o)) 0).val = t.val / 64 := by
    show win0_2.index t (0 : Fin 3) * 1 + 1 * u.val = t.val / 64; omega
  have k2 : (((cfg0.win 2).blk t).view.emb (ix3 u v o)) 2 = o :=
    Fin.ext (by show win0_2.index t (2 : Fin 3) * 256 + 1 * o.val = o.val; omega)
  unfold rows
  rw [k0, k2]

/-- An index is in point t's output block iff each coordinate is in the block's range. -/
theorem mem_blk (t : Fin cfg0.N) (i : S2x1x256.Idx) :
    i ∈ ((cfg0.win 2).blk t).view.set ↔ ∀ a : Fin 3, win0_2.index t a * S1x1x256.size a ≤ (i a).val ∧ (i a).val < win0_2.index t a * S1x1x256.size a + S1x1x256.size a := by
  show i ∈ ((View.whole main_v1).slice (win0_2.rect t)).set ↔ _
  rw [View.set_slice_whole, Rect.mem_set_unit]
  exact Iff.rfl

/-- The two written-back blocks cover the array: partial row k is written back after point 64·k + 63. -/
theorem cover (i : S2x1x256.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 256 := (i 2).isLt
  have hN : cfg0.N = 128 := N_0
  let t : Fin cfg0.N := ⟨64 * (i 0).val + 63, by rw [hN]; omega⟩
  obtain ⟨-, -, -, -, e4, e5, e6⟩ := idx_facts t
  have ht : t.val = 64 * (i 0).val + 63 := rfl
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 256 ≤ (i 2).val ∧ (i 2).val < win0_2.index t (2 : Fin 3) * 256 + 256; omega

/-- The array of partial rows after the region: `rows` of the arrays the region is entered with. -/
theorem final (c : Dev nD) : (dat0 V c).arrAt 2 cfg0.N = rows (V c main_arg0) (V c main_v0) :=
  (dat0 V c).arrAt_eq_of_cover 2 (rows (V c main_arg0) (V c main_v0)) (flushed_eq V c) (cover)

end Value

end Cert.KernelIdeal.Partial

end
-- ==== Proof.FinishValue.lean ====
/-
  The finishing region's output array as one function of the arrays it is entered with.

  The region runs over 8 grid points; point t reads rows 512·t … 512·t + 511 of x and the whole 2 × 1 × 256 array s of
  partial rows, and writes rows 512·t … 512·t + 511 of the output: out[n,q] = x[n,q] · exp(s[0,0,q] + s[1,0,q]).  Each
  point's write-back is its block of that one function, and the 8 blocks cover the 4096 rows.
-/
import proofs.«128110_j71992241816165_2_alg».proof.Proof.Gen.KernelIdeal.Frame
import proofs.«128110_j71992241816165_2_alg».proof.Proof.Payload
import Idealize.ShloMosaic.Lib.Pipeline.Value

set_option maxRecDepth 16384

noncomputable section

open scoped BigOperators

namespace Cert.KernelIdeal.Finish

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The output as a function of x and the partial rows s: out[n,q] = x[n,q] · exp(s[0,0,q] + s[1,0,q]). -/
def scaled (x : S4096x256.Idx → EReal) (s : S2x1x256.Idx → EReal) : S4096x256.Idx → EReal :=
  fun j => x j * Ideal.exp (s (ix3 (0 : Fin 2) (0 : Fin 1) (j 1)) + s (ix3 (1 : Fin 2) (0 : Fin 1) (j 1)))

/-- The block index maps over the grid: the row windows of x and of the output move with the point, the window of the
    partial rows stays. -/
theorem idx_facts : ∀ t : Fin cfg1.N, win1_0.index t (0 : Fin 2) = t.val ∧ win1_0.index t (1 : Fin 2) = 0
    ∧ win1_2.index t (0 : Fin 2) = t.val ∧ win1_2.index t (1 : Fin 2) = 0
    ∧ win1_1.index t (0 : Fin 3) = 0 ∧ win1_1.index t (1 : Fin 3) = 0 ∧ win1_1.index t (2 : Fin 3) = 0 :=
  (by decide +kernel : ∀ t : Fin grid1.N, _)

/-- Row p of point t's block is row 512·t + p of the array. -/
abbrev rowAt (t : Fin cfg1.N) (p : Fin 512) : Fin 4096 :=
  ⟨512 * t.val + p.val, by have := lt_of_lt_of_eq t.isLt N_1; have := p.isLt; omega⟩

/-- Point t's block of x holds rows 512·t … 512·t + 511. -/
theorem read_x (c : Dev nD) (t : Fin cfg1.N) (p : Fin 512) (q : Fin 256) :
    (iblk1 V c 0 t : Vec Ideal S512x256 .f32) (ix2 p q) = V c main_arg0 (ix2 (rowAt t p) q) := by
  obtain ⟨e0, e1, -⟩ := idx_facts t
  unfold iblk1
  rw [View.read_apply]
  show V c main_arg0 (((cfg1.win 0).blk t).view.emb (ix2 p q)) = _
  refine congrArg (V c main_arg0) ?_
  funext a; apply Fin.ext
  match a with
  | ⟨0, _⟩ => show win1_0.index t (0 : Fin 2) * 512 + 1 * p.val = 512 * t.val + p.val; omega
  | ⟨1, _⟩ => show win1_0.index t (1 : Fin 2) * 256 + 1 * q.val = q.val; omega

/-- Every point's block of the partial rows is the whole array. -/
theorem read_s (c : Dev nD) (t : Fin cfg1.N) (k : Fin 2) (q : Fin 256) :
    (iblk1 V c 1 t : Vec Ideal S2x1x256 .f32) (ix3 k (0 : Fin 1) q) = V c main_v1 (ix3 k (0 : Fin 1) q) := by
  obtain ⟨-, -, -, -, e4, e5, e6⟩ := idx_facts t
  unfold iblk1
  rw [View.read_apply]
  show V c main_v1 (((cfg1.win 1).blk t).view.emb (ix3 k (0 : Fin 1) q)) = _
  refine congrArg (V c main_v1) ?_
  funext a; apply Fin.ext
  match a with
  | ⟨0, _⟩ => show win1_1.index t (0 : Fin 3) * 2 + 1 * k.val = k.val; omega
  | ⟨1, _⟩ => show win1_1.index t (1 : Fin 3) * 1 + 1 * 0 = 0; omega
  | ⟨2, _⟩ => show win1_1.index t (2 : Fin 3) * 256 + 1 * q.val = q.val; omega

/-- What point t writes back is block t of `scaled` of the arrays the region is entered with. -/
theorem flushed_eq (c : Dev nD) (t : Fin cfg1.N) :
    (dat1 V c).flushed 2 t = ((cfg1.win 2).blk t).view.read (Elt Ideal) (scaled (V c main_arg0) (V c main_v1)) := by
  show (cfg1.win 2).cut (grid1.coords t) ((dat1 V c).after 2 t) = _
  rw [after1_2]
  unfold out1_2
  rw [View.canon_unit_zero hz2]
  simp only [View.ld_unit_zero (S := S512x256) hz2, View.ld_unit_zero (S := S2x1x256) hz3]
  obtain ⟨-, -, e2, e3, -⟩ := idx_facts t
  funext y
  obtain ⟨p, q, rfl⟩ : ∃ (p : Fin 512) (q : Fin 256), y = ix2 p q := ⟨y 0, y 1, eq_ix2 y⟩
  refine (Pay.scale_apply (iblk1 V c 0 t) (iblk1 V c 1 t) p q).trans ?_
  rw [read_x V c t p q, read_s V c t 0 q, read_s V c t 1 q, View.read_apply]
  have hemb : ((cfg1.win 2).blk t).view.emb (ix2 p q) = ix2 (rowAt t p) q := by
    funext a; apply Fin.ext
    match a with
    | ⟨0, _⟩ => show win1_2.index t (0 : Fin 2) * 512 + 1 * p.val = 512 * t.val + p.val; omega
    | ⟨1, _⟩ => show win1_2.index t (1 : Fin 2) * 256 + 1 * q.val = q.val; omega
  show _ = scaled (V c main_arg0) (V c main_v1) (((cfg1.win 2).blk t).view.emb (ix2 p q))
  rw [hemb]
  rfl

/-- An index is in point t's output block iff each coordinate is in the block's range. -/
theorem mem_blk (t : Fin cfg1.N) (i : S4096x256.Idx) :
    i ∈ ((cfg1.win 2).blk t).view.set ↔ ∀ a : Fin 2, win1_2.index t a * S512x256.size a ≤ (i a).val ∧ (i a).val < win1_2.index t a * S512x256.size a + S512x256.size a := by
  show i ∈ ((View.whole main_v2).slice (win1_2.rect t)).set ↔ _
  rw [View.set_slice_whole, Rect.mem_set_unit]
  exact Iff.rfl

/-- The 8 output blocks cover the array: row n lies in the block of point n / 512. -/
theorem cover (i : S4096x256.Idx) :
    ∃ t : Fin cfg1.N, (cfg1.win 2).flush t = true ∧ i ∈ ((cfg1.win 2).blk t).view.set := by
  have hi0 : (i 0).val < 4096 := (i 0).isLt
  have hi1 : (i 1).val < 256 := (i 1).isLt
  have hN : cfg1.N = 8 := N_1
  let t : Fin cfg1.N := ⟨(i 0).val / 512, by rw [hN]; omega⟩
  obtain ⟨e0, e1, e2, e3, e4, e5, e6⟩ := idx_facts t
  have ht : t.val = (i 0).val / 512 := rfl
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 256 ≤ (i 1).val ∧ (i 1).val < win1_2.index t (1 : Fin 2) * 256 + 256; omega

/-- The output array after the region: `scaled` of the arrays the region is entered with. -/
theorem final (c : Dev nD) : (dat1 V c).arrAt 2 cfg1.N = scaled (V c main_arg0) (V c main_v1) :=
  (dat1 V c).arrAt_eq_of_cover 2 (scaled (V c main_arg0) (V c main_v1)) (fun t _ => flushed_eq V c t) (cover)

end Cert.KernelIdeal.Finish

end
-- ==== Proof.LibSumTwoAxes.lean ====
/-
  A sum over the two leading axes of a rank-3 array, read at a coordinate of the remaining axis: the host's float sum
  over axes 0 and 1 of an n0 × n1 × n2 array into a length-n2 array, at position c, is the initial value plus the double
  sum over the two leading coordinates of the entries at (a, b, c).
-/
import Idealize.ShloMosaic.PureOps.Ideal
import Idealize.ShloMosaic.PureOps.Ideal.Laws
import Idealize.ShloMosaic.Lib.ValueIdx

noncomputable section

open scoped BigOperators

namespace Cert.LibSumTwoAxes

open Idealize.ShloMosaic Idealize.ShloMosaic.ValueIdx

/-- Dropping axes 0 and 1 of a rank-3 index leaves its coordinate on axis 2. -/
theorem drop_eq_ix1_iff {n0 n1 n2 : Nat} (h : (⟨3, ![n0, n1, n2]⟩ : Shape).ReducesTo [0, 1] ⟨1, ![n2]⟩)
    (i : (⟨3, ![n0, n1, n2]⟩ : Shape).Idx) (c : Fin n2) : h.drop i = ix1 c ↔ i 2 = c := by
  have hv : (h.drop i 0 : Nat) = i 2 := rfl
  constructor
  · intro e
    apply Fin.ext
    rw [← hv, e]
    rfl
  · intro e
    funext d
    match d with
    | ⟨0, _⟩ =>
      apply Fin.ext
      show (h.drop i 0 : Nat) = (c : Nat)
      rw [hv, e]

/-- The sum over axes 0 and 1 of a rank-3 array, at coordinate `c` of axis 2, is the initial value plus the double sum
    over the two leading coordinates. -/
theorem hostReduceAdd_axes01 {n0 n1 n2 : Nat} (h : (⟨3, ![n0, n1, n2]⟩ : Shape).ReducesTo [0, 1] ⟨1, ![n2]⟩)
    (x : (⟨3, ![n0, n1, n2]⟩ : Shape).Idx → EReal) (init : EReal) (c : Fin n2) :
    Ideal.hostReduceAdd h x init (ix1 c) = init + ∑ a : Fin n0, ∑ b : Fin n1, x (ix3 a b c) := by
  unfold Ideal.hostReduceAdd
  congr 1
  rw [← Finset.sum_product']
  refine Finset.sum_nbij' (fun i => ((i 0 : Fin n0), (i 1 : Fin n1))) (fun p => ix3 p.1 p.2 c) ?_ ?_ ?_ ?_ ?_
  · intro i _
    exact Finset.mem_product.mpr ⟨Finset.mem_univ _, Finset.mem_univ _⟩
  · intro p _
    rw [Finset.mem_filter]
    exact ⟨Finset.mem_univ _, (drop_eq_ix1_iff h _ c).mpr rfl⟩
  · intro i hi
    rw [Finset.mem_filter] at hi
    have e : i 2 = c := (drop_eq_ix1_iff h i c).mp hi.2
    funext d
    match d with
    | ⟨0, _⟩ => rfl
    | ⟨1, _⟩ => rfl
    | ⟨2, _⟩ => exact e.symm
  · intro p _
    rfl
  · intro i hi
    rw [Finset.mem_filter] at hi
    have e : i 2 = c := (drop_eq_ix1_iff h i c).mp hi.2
    congr 1
    funext d
    match d with
    | ⟨0, _⟩ => rfl
    | ⟨1, _⟩ => rfl
    | ⟨2, _⟩ => exact e

/-- The same for the generic float sum, at the ideal values. -/
theorem floatOps_hostReduceAdd_axes01 {φ : FTy} {n0 n1 n2 : Nat}
    (h : (⟨3, ![n0, n1, n2]⟩ : Shape).ReducesTo [0, 1] ⟨1, ![n2]⟩) (sched : HostSchedule)
    (x : FVec Ideal ⟨3, ![n0, n1, n2]⟩ φ) (init : Ideal φ) (c : Fin n2) :
    FloatOps.hostReduceAdd [0, 1] h sched x init (ix1 c) = init + ∑ a : Fin n0, ∑ b : Fin n1, x (ix3 a b c) := by
  rw [Ideal.hostReduceAdd_def]
  exact hostReduceAdd_axes01 h x init c

end Cert.LibSumTwoAxes

end
-- ==== Proof.RefValue.lean ====
/-
  The reference's result read at an index, at exact (extended-real) arithmetic:
  ref[n,o] = exp(log x[n,o] + (0 + Σ_a Σ_b log(1 + (−x[a,b]) · W[o,b]))).
  The row x is negated before the product, the weights are transposed and both are broadcast to 4096 × 256 × 256; the sum
  runs over the two leading axes.
-/
import proofs.«128110_j71992241816165_2_alg».proof.Proof.Gen.ReferenceIdeal.Read
import proofs.«128110_j71992241816165_2_alg».proof.Proof.LibSumTwoAxes
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's result at (n, o). -/
theorem ref_apply (x : (⟨S4096x256, .f32⟩ : BufTy).Contents (Elt Ideal)) (w : (⟨S256x256, .f32⟩ : BufTy).Contents (Elt Ideal))
    (n : Fin 4096) (o : Fin 256) :
    val_main_v13 (F := Ideal) x w (ix2 n o)
      = Ideal.exp (Ideal.log (x (ix2 n o)) + (Ideal.ofBits .f32 0x00000000#32
          + ∑ a : Fin 4096, ∑ b : Fin 256, Ideal.log1p (-(x (ix2 a b)) * w (ix2 o b)))) := by
  have i1 : idx_main_v10 (idx_main_v11 (ix2 n o)) = ix1 o :=
    funext fun a => Fin.ext (by match a with | ⟨0, _⟩ => rfl)
  rw [val_main_v13_apply, val_main_v12_apply, val_main_v9_apply, val_main_v11_apply, val_main_v10_apply, i1]
  unfold val_main_v8
  simp only [Ideal.hostUnary_exp_def, Ideal.hostUnary_log_def, Ideal.addf_def]
  refine congrArg (fun z => Ideal.exp (Ideal.log (x (ix2 n o)) + z)) ?_
  refine (LibSumTwoAxes.floatOps_hostReduceAdd_axes01 _ _ _ _ o).trans ?_
  refine congrArg₂ (· + ·) rfl (Finset.sum_congr rfl fun a _ => Finset.sum_congr rfl fun b _ => ?_)
  have j4 : idx_main_v0 (idx_main_v4 (ix3 a b o)) = ix2 a b :=
    funext fun d => Fin.ext (by match d with | ⟨0, _⟩ => rfl | ⟨1, _⟩ => rfl)
  have j5 : idx_main_v2 (idx_main_v3 (idx_main_v5 (ix3 a b o))) = ix2 o b :=
    funext fun d => Fin.ext (by match d with | ⟨0, _⟩ => rfl | ⟨1, _⟩ => rfl)
  rw [val_main_v7_apply, val_main_v6_apply, val_main_v4_apply, val_main_v1_apply, val_main_v0_apply, val_main_v5_apply,
    val_main_v3_apply, val_main_v2_apply, j4, j5]
  simp only [Ideal.hostUnary_log1p_def, Ideal.mulf_def, Ideal.hostNegf_def, Ideal.negf_def]

end Cert.ReferenceIdeal.RefValue

end
-- ==== Proof.Bridge.lean ====
/-
  The two sides are one function.

  The kernel's result, read off its two regions, is x[n,o] · exp(rows[0,0,o] + rows[1,0,o]) with rows[k,0,o] the sum of
  log(1 + (0 − x[n',i] · Wᵀ[i,o])) over the rows n' of half k and all i; since 0 − a = −a and Wᵀ[i,o] = W[o,i] the two
  partial rows add up to S[o], so the kernel's result is out = x · exp(S).  The reference's result is
  exp(log x[n,o] + (0 + Σ log(1 + (−x[n',i]) · W[o,i]))); (−a)·b = −(a·b), so the sum is S[o] again, and for a real
  x[n,o] > 0 the law exp(log a + S) = a · exp S makes it out as well.
-/
import proofs.«128110_j71992241816165_2_alg».proof.Proof.Spec
import proofs.«128110_j71992241816165_2_alg».proof.Proof.PartialRows
import proofs.«128110_j71992241816165_2_alg».proof.Proof.FinishValue
import proofs.«128110_j71992241816165_2_alg».proof.Proof.RefValue
import Idealize.ShloMosaic.Lib.ValueLayout

noncomputable section

open scoped BigOperators

namespace Cert.Bridge

open Idealize.ShloMosaic Idealize.ShloMosaic.ValueIdx

/-- A point's addend over the transposed weights is that group's contribution to S. -/
theorem addend_eq (x : LogSum.SX.Idx → EReal) (W : LogSum.SW.Idx → EReal)
    (h : (⟨2, ![256, 256]⟩ : Shape).Transposes [1, 0] ⟨2, ![256, 256]⟩) (n : ℕ) (o : Fin 256) :
    KernelIdeal.Partial.addend x (transpose ⟨2, ![256, 256]⟩ [1, 0] W h) n o = LogSum.groupSum x W n o := by
  unfold KernelIdeal.Partial.addend LogSum.groupSum LogSum.term
  refine Finset.sum_congr rfl fun i _ => Finset.sum_congr rfl fun r _ => ?_
  rw [transpose_ix2_apply, Ideal.ofBits_zero_f32, zero_sub]

/-- Partial row k over the transposed weights is the sum of its 64 groups' contributions. -/
theorem rows_eq (x : LogSum.SX.Idx → EReal) (W : LogSum.SW.Idx → EReal)
    (h : (⟨2, ![256, 256]⟩ : Shape).Transposes [1, 0] ⟨2, ![256, 256]⟩) (k : Fin 2) (o : Fin 256) :
    KernelIdeal.Partial.rows x (transpose ⟨2, ![256, 256]⟩ [1, 0] W h) (ix3 k (0 : Fin 1) o) = LogSum.coreSum x W k.val o := by
  unfold KernelIdeal.Partial.rows LogSum.coreSum
  rw [Ideal.ofBits_zero_f32, zero_add]
  exact Finset.sum_congr rfl fun s _ => addend_eq x W h _ o

/-- The kernel's result is x · exp(S). -/
theorem kernel_eq (x : LogSum.SX.Idx → EReal) (W : LogSum.SW.Idx → EReal)
    (h : (⟨2, ![256, 256]⟩ : Shape).Transposes [1, 0] ⟨2, ![256, 256]⟩) :
    KernelIdeal.Finish.scaled x (KernelIdeal.Partial.rows x (transpose ⟨2, ![256, 256]⟩ [1, 0] W h)) = LogSum.out x W := by
  funext j
  obtain ⟨n, o, rfl⟩ : ∃ (n : Fin 4096) (o : Fin 256), j = ix2 n o := ⟨j 0, j 1, eq_ix2 j⟩
  unfold KernelIdeal.Finish.scaled LogSum.out
  show x (ix2 n o) * Ideal.exp (KernelIdeal.Partial.rows x _ (ix3 (0 : Fin 2) (0 : Fin 1) o)
      + KernelIdeal.Partial.rows x _ (ix3 (1 : Fin 2) (0 : Fin 1) o)) = x (ix2 n o) * Ideal.exp (LogSum.total x W o)
  rw [rows_eq x W h 0 o, rows_eq x W h 1 o]
  exact congrArg (fun z => x (ix2 n o) * Ideal.exp z) (LogSum.core_add x W o)

/-- The reference's result is x · exp(S) where every entry of x is a positive real. -/
theorem ref_eq (x : LogSum.SX.Idx → EReal) (W : LogSum.SW.Idx → EReal)
    (hpos : ∀ j, ∃ a : ℝ, 0 < a ∧ x j = (a : EReal)) :
    ReferenceIdeal.Read.val_main_v13 (F := Ideal) x W = LogSum.out x W := by
  funext j
  obtain ⟨n, o, rfl⟩ : ∃ (n : Fin 4096) (o : Fin 256), j = ix2 n o := ⟨j 0, j 1, eq_ix2 j⟩
  obtain ⟨a, ha, hx⟩ := hpos (ix2 n o)
  refine (ReferenceIdeal.RefValue.ref_apply x W n o).trans ?_
  unfold LogSum.out
  show _ = x (ix2 n o) * Ideal.exp (LogSum.total x W o)
  rw [hx, Ideal.ofBits_zero_f32, zero_add, LogSum.exp_log_add a ha]
  refine congrArg (fun z => (a : EReal) * Ideal.exp z) ?_
  unfold LogSum.total LogSum.term
  refine Finset.sum_congr rfl fun a' _ => Finset.sum_congr rfl fun b _ => ?_
  rw [EReal.neg_mul]

end Cert.Bridge

end
-- ==== Proof.Positive.lean ====
/-
  What the precondition says of the first argument: every entry of x is a real number greater than zero.

  The precondition is the conjunction of three tests, each taken over a whole array: |x| < +∞, |W| < +∞, and x > 0.  An
  entry of x that is greater than zero is not −∞, and with |x| < +∞ it is not +∞; so it is a real number, and positive.
-/
import proofs.«128110_j71992241816165_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Domain

open Cert.Pre_finite_inputs Cert.Pre_finite_inputs.Gen
open Idealize.ShloMosaic

instance : Subsingleton S_.Idx := ⟨fun a b => funext fun d => d.elim0⟩

/-- An extended real that is greater than zero and whose absolute value is below +∞ is a positive real. -/
theorem real_pos_of (z : EReal) (hfin : max z (-z) < ⊤) (hpos : 0 < z) : ∃ a : ℝ, 0 < a ∧ z = (a : EReal) := by
  induction z using EReal.rec with
  | bot => exact absurd hpos (by simp)
  | top => exact absurd hfin (by simp)
  | coe a => exact ⟨a, by exact_mod_cast hpos, rfl⟩

/-- Under the precondition every entry of the first argument is a positive real. -/
theorem pos_of_pre (x : FVec Ideal S4096x256 .f32) (w : FVec Ideal S256x256 .f32)
    (h : fn (F := Ideal) x w = fun _ => 1#1) (j : S4096x256.Idx) : ∃ a : ℝ, 0 < a ∧ x j = (a : EReal) := by
  have h0 := congrFun h ValueIdx.ix0
  dsimp only [fn] at h0
  obtain ⟨h12, h3⟩ := IntOp.andi_eq_one.1 h0
  obtain ⟨h1, -⟩ := IntOp.andi_eq_one.1 h12
  have hfin := Host.reduce_andi_all _ _ _ _ _ h1 j
  have hpos := Host.reduce_andi_all _ _ _ _ _ h3 j
  refine real_pos_of (x j) ?_ ?_
  · have e : Ideal.cmp .olt (max (x j) (-(x j))) (Ideal.ofBits .f32 0x7F800000#32) = 1#1 := hfin
    have ht : Ideal.ofBits .f32 0x7F800000#32 = (⊤ : EReal) := by simp [Ideal.ofBits, Ideal.ieee]
    rw [ht] at e
    by_contra hn
    simp [Ideal.cmp, hn] at e
  · have e : Ideal.cmp .ogt (x j) (Ideal.ofBits .f32 0x00000000#32) = 1#1 := hpos
    rw [Ideal.ofBits_zero_f32] at e
    by_contra hn
    simp [Ideal.cmp, hn] at e

end Cert.Pre_finite_inputs.Domain

end
-- ==== Proof.lean ====
/-
  Claim: for x : 4096 × 256 with every entry a positive real, and W : 256 × 256, the kernel program and the reference end
  with the same result as extended reals,

      out[n,o] = x[n,o] · exp(S[o]),   S[o] = Σ_{n',i} log(1 − x[n',i] · W[o,i]).

  The kernel program transposes W on the host and runs two kernel regions.  The first sums log(1 + (0 − x · Wᵀ)) over the
  rows, 32 rows to a grid point, 64 points to each of two partial rows (PartialRows); the second adds the two partial rows,
  takes exp, and scales x by it, 512 rows to a grid point (FinishValue).  The reference computes
  exp(log x[n,o] + S[o]) with the sum taken in one piece (RefValue).  The grouping of a sum does not matter in a
  commutative monoid, and exp(log a + S) = a · exp S for a real a > 0 and every extended real S (Spec); the precondition
  gives that every entry of x is such an a (Positive).  No finiteness of W is used, and none of S.

  The three frame claims are the programs' runs with the results dropped; no rewrite was made when the kernel was
  idealized, so that claim is trivial.
-/
import proofs.«128110_j71992241816165_2_alg».proof.Defs
import proofs.«128110_j71992241816165_2_alg».proof.Proof.Gen.Kernel
import proofs.«128110_j71992241816165_2_alg».proof.Proof.Gen.Kernel.Skeleton
import proofs.«128110_j71992241816165_2_alg».proof.Proof.Gen.Kernel.Launch
import proofs.«128110_j71992241816165_2_alg».proof.Proof.Gen.Kernel.Points
import proofs.«128110_j71992241816165_2_alg».proof.Proof.Gen.Kernel.Frame
import proofs.«128110_j71992241816165_2_alg».proof.Proof.Gen.KernelIdeal
import proofs.«128110_j71992241816165_2_alg».proof.Proof.Gen.KernelIdeal.Skeleton
import proofs.«128110_j71992241816165_2_alg».proof.Proof.Gen.KernelIdeal.Launch
import proofs.«128110_j71992241816165_2_alg».proof.Proof.Gen.KernelIdeal.Points
import proofs.«128110_j71992241816165_2_alg».proof.Proof.Gen.KernelIdeal.Frame
import proofs.«128110_j71992241816165_2_alg».proof.Proof.Gen.ReferenceIdeal
import proofs.«128110_j71992241816165_2_alg».proof.Proof.Gen.Pre_finite_inputs
import proofs.«128110_j71992241816165_2_alg».proof.Proof.Gen.ReferenceIdeal.Run
import proofs.«128110_j71992241816165_2_alg».proof.Proof.Gen.ReferenceIdeal.Read
import proofs.«128110_j71992241816165_2_alg».proof.Proof.WholeRun
import proofs.«128110_j71992241816165_2_alg».proof.Proof.PartialRows
import proofs.«128110_j71992241816165_2_alg».proof.Proof.FinishValue
import proofs.«128110_j71992241816165_2_alg».proof.Proof.Bridge
import proofs.«128110_j71992241816165_2_alg».proof.Proof.Positive
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's result array: the second region's output over the first region's partial rows over the transposed
    weights, which is x · exp(S) of the arguments as launched. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Whole.lastArr m ρ c
      = Cert.LogSum.out (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  unfold Cert.KernelIdeal.Whole.lastArr
  rw [Cert.KernelIdeal.Finish.final (Cert.KernelIdeal.Gen.V2 m ρ) c, Cert.KernelIdeal.Whole.entry1_x, Cert.KernelIdeal.Whole.entry1_s,
    Cert.KernelIdeal.Partial.final (Cert.KernelIdeal.Gen.V1 m ρ) c, Cert.KernelIdeal.Whole.entry0_x, Cert.KernelIdeal.Whole.entry0_w]
  exact Cert.Bridge.kernel_eq _ _ _

/-- Both programs end with x · exp(S) of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.LogSum.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c => ⟨(h c).1.trans (kernel_result m ρ c), (h c).2⟩)
      (Cert.KernelIdeal.Whole.run_main m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v13_eq, (hagree c).1, (hagree c).2]
    exact Cert.Bridge.ref_eq _ _ (fun j => Cert.Pre_finite_inputs.Domain.pos_of_pre _ _ (hpre c) j)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
